-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel

variable [Facts]

def fn {F : FTy → Type} [FloatOps F] (main_arg0 : FVec F S32x512x32x32 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  main_v3
-- ==== Kernel.lean ====
abbrev S32x512x32x32 : Shape := ⟨4, ![32, 512, 32, 32]⟩
abbrev S32x512x1024 : Shape := ⟨3, ![32, 512, 1024]⟩
abbrev S2x512x1024 : Shape := ⟨3, ![2, 512, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩

abbrev nBuf : Space → Nat
  | .hbm => 4
  | .vmem => 4
  | .smem => 0
  | _ => 0

abbrev bufTy : (tb : Table) → Fin (tcTables nBuf tb) → BufTy
  | .hbm, ⟨0, _⟩ => ⟨S32x512x32x32, .f32⟩
  | .hbm, ⟨1, _⟩ => ⟨S32x512x1024, .f32⟩
  | .hbm, ⟨2, _⟩ => ⟨S32x512x1024, .f32⟩
  | .hbm, ⟨3, _⟩ => ⟨S32x512x32x32, .f32⟩
  | .local _ .vmem, ⟨0, _⟩ => ⟨S2x512x1024, .f32⟩
  | .local _ .vmem, ⟨1, _⟩ => ⟨S2x512x1024, .f32⟩
  | .local _ .vmem, ⟨2, _⟩ => ⟨S2x512x1024, .f32⟩
  | .local _ .vmem, ⟨3, _⟩ => ⟨S2x512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x512x32x32_S32x512x1024 : S32x512x32x32.ShapeCasts S32x512x1024
  inb_S2x512x1024_S1x512x1024_0_0_0 : ∀ a, (![0, 0, 0] : Fin 3 → Nat) a + S1x512x1024.size a ≤ S2x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  transposes_S512x1_p1_0_S1x512 : S512x1.Transposes [1, 0] S1x512
  broadcasts_S1x512_S512x512 : S1x512.Broadcasts S512x512
  broadcasts_S512x1_S512x512 : S512x1.Broadcasts S512x512
  reduces_S512x512_S512 : S512x512.Reduces [1] S512
  bitsLt_bf16_f32 : FTy.bits .bf16 < FTy.bits .f32
  shapeCasts_S512x1024_S1x512x1024 : S512x1024.ShapeCasts S1x512x1024
  inb_S2x512x1024_S1x512x1024_1_0_0 : ∀ a, (![1, 0, 0] : Fin 3 → Nat) a + S1x512x1024.size a ≤ S2x512x1024.size a
  shapeCasts_S32x512x1024_S32x512x32x32 : S32x512x1024.ShapeCasts S32x512x32x32
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1024.size a ≤ S32x512x1024.size a
  hwx0_0 : ∀ i : grid0.Coords, EltTy.bits .f32 = 32 ∨ (Rect.block (s := S32x512x1024) S2x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x1024.size a ≤ S32x512x1024.size a
  hwx0_1 : ∀ i : grid0.Coords, EltTy.bits .f32 = 32 ∨ (Rect.block (s := S32x512x1024) S2x512x1024.size (cc0_transform_1 i) (hinb0_1 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S2x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S32x512x1024 : Shape := ⟨3, ![32, 512, 1024]⟩
abbrev S32x1024x512 : Shape := ⟨3, ![32, 1024, 512]⟩
abbrev S_ : Shape := ⟨0, ![]⟩
abbrev S32x512 : Shape := ⟨2, ![32, 512]⟩
abbrev S32x1x512 : Shape := ⟨3, ![32, 1, 512]⟩
abbrev S32x512x1 : Shape := ⟨3, ![32, 512, 1]⟩
abbrev S32x512x512 : Shape := ⟨3, ![32, 512, 512]⟩

abbrev nBuf : Space → Nat
  | .hbm => 39
  | .vmem => 0
  | .smem => 0
  | _ => 0

abbrev bufTy : (tb : Table) → Fin (tcTables nBuf tb) → BufTy
  | .hbm, ⟨0, _⟩ => ⟨S32x512x32x32, .f32⟩
  | .hbm, ⟨1, _⟩ => ⟨S32x512x1024, .f32⟩
  | .hbm, ⟨2, _⟩ => ⟨S32x1024x512, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x1x512, .f32⟩
  | .hbm, ⟨9, _⟩ => ⟨S32x512x1, .f32⟩
  | .hbm, ⟨10, _⟩ => ⟨S32x512x512, .f32⟩
  | .hbm, ⟨11, _⟩ => ⟨S32x512x512, .f32⟩
  | .hbm, ⟨12, _⟩ => ⟨S32x512x512, .f32⟩
  | .hbm, ⟨13, _⟩ => ⟨S32x512x512, .f32⟩
  | .hbm, ⟨14, _⟩ => ⟨S32x512x512, .f32⟩
  | .hbm, ⟨15, _⟩ => ⟨S_, .f32⟩
  | .hbm, ⟨16, _⟩ => ⟨S32x512, .f32⟩
  | .hbm, ⟨17, _⟩ => ⟨S_, .f32⟩
  | .hbm, ⟨18, _⟩ => ⟨S32x512, .f32⟩
  | .hbm, ⟨19, _⟩ => ⟨S32x512, .f32⟩
  | .hbm, ⟨20, _⟩ => ⟨S32x1x512, .f32⟩
  | .hbm, ⟨21, _⟩ => ⟨S32x512x512, .f32⟩
  | .hbm, ⟨22, _⟩ => ⟨S32x512x512, .f32⟩
  | .hbm, ⟨23, _⟩ => ⟨S32x512x512, .f32⟩
  | .hbm, ⟨24, _⟩ => ⟨S_, .f32⟩
  | .hbm, ⟨25, _⟩ => ⟨S32x512, .f32⟩
  | .hbm, ⟨26, _⟩ => ⟨S32x1x512, .f32⟩
  | .hbm, ⟨27, _⟩ => ⟨S32x512x512, .f32⟩
  | .hbm, ⟨28, _⟩ => ⟨S32x512x512, .f32⟩
  | .hbm, ⟨29, _⟩ => ⟨S32x1024x512, .f32⟩
  | .hbm, ⟨30, _⟩ => ⟨S32x512x1024, .f32⟩
  | .hbm, ⟨31, _⟩ => ⟨S32x512x32x32, .f32⟩
  | .hbm, ⟨32, _⟩ => ⟨S_, .f32⟩
  | .hbm, ⟨33, _⟩ => ⟨S32x512x32x32, .f32⟩
  | .hbm, ⟨34, _⟩ => ⟨S32x512x32x32, .f32⟩
  | .hbm, ⟨35, _⟩ => ⟨S32x512x32x32, .f32⟩
  | .hbm, ⟨36, _⟩ => ⟨S_, .f32⟩
  | .hbm, ⟨37, _⟩ => ⟨S32x512x32x32, .f32⟩
  | .hbm, ⟨38, _⟩ => ⟨S32x512x32x32, .f32⟩
  | _, _ => ⟨S32x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_cst : Ref sig .tc := ⟨.hbm, 36, rfl⟩
abbrev main_call0_v0 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  shapeCasts_S32x512x32x32_S32x512x1024 : S32x512x32x32.ShapeCasts S32x512x1024
  transposes_S32x512x1024_S32x1024x512_0_2_1 : S32x512x1024.Transposes [0, 2, 1] S32x1024x512
  reducesTo_S32x1024x512_S32x512_d1 : S32x1024x512.ReducesTo [1] S32x512
  h_S_ : 0 < S_.numel
  bcast_S_S32x512 : S_.BroadcastsInDim S32x512 (![] : Fin 0 → Fin S32x512.rank)
  bcast_S32x512_S32x1x512_0_2 : S32x512.BroadcastsInDim S32x1x512 (![0, 2] : Fin 2 → Fin S32x1x512.rank)
  bcast_S32x512_S32x512x1_0_1 : S32x512.BroadcastsInDim S32x512x1 (![0, 1] : Fin 2 → Fin S32x512x1.rank)
  bcast_S32x1x512_S32x512x512_0_1_2 : S32x1x512.BroadcastsInDim S32x512x512 (![0, 1, 2] : Fin 3 → Fin S32x512x512.rank)
  bcast_S32x512x1_S32x512x512_0_1_2 : S32x512x1.BroadcastsInDim S32x512x512 (![0, 1, 2] : Fin 3 → Fin S32x512x512.rank)
  reducesTo_S32x512x512_S32x512_d1 : S32x512x512.ReducesTo [1] S32x512
  transposes_S32x1024x512_S32x512x1024_0_2_1 : S32x1024x512.Transposes [0, 2, 1] S32x512x1024
  shapeCasts_S32x512x1024_S32x512x32x32 : S32x512x1024.ShapeCasts S32x512x32x32
  bcast_S_S32x512x32x32 : S_.BroadcastsInDim S32x512x32x32 (![] : Fin 0 → Fin S32x512x32x32.rank)
  dot_S32x1024x512_S32x512x512_S32x1024x512_2_1_1_2_0_0_wf : DotDims.WF S32x1024x512 S32x512x512 S32x1024x512 [2] [1] [1] [2] [0] [0]

variable [Facts₀]

def dot_S32x1024x512_S32x512x512_S32x1024x512_2_1_1_2_0_0 : DotDims S32x1024x512 S32x512x512 S32x1024x512 where
  lhsContracting := [2]
  rhsContracting := [1]
  lhsNonContracting := [1]
  rhsNonContracting := [2]
  lhsBatch := [0]
  rhsBatch := [0]
  wf := dot_S32x1024x512_S32x512x512_S32x1024x512_2_1_1_2_0_0_wf

class Facts : Prop extends Facts₀ where

variable [Facts]
-- ==== Proof.ChannelMix.lean ====
/-
  Channel mixing by the distance between channel means — the function both programs compute, stated once.

  One batch entry is a matrix `X` of 512 channels by 1024 positions. Channel `c` has the mean `μ c` of its row.
  Two channels `i`, `k` score minus the squared distance of their means, `-(μ k - μ i)²`; the score is symmetric in
  `i` and `k` on all of the extended reals (`score_symm`), because `(a - b)²` and `(b - a)²` agree there even where a
  difference is a sum of opposite infinities. Row `i` of the scores is turned into weights by the usual shifted
  exponentials — each score less the row's largest, exponentiated, divided by the row's total — and channel `i`
  of the mixed matrix is the weighted sum of the rows of `X`. The result adds a tenth of the mixed matrix to `X`
  and clips it below at zero.

  Every float literal stays the 32-bit word the programs print (1024, minus infinity, zero, a tenth): the same
  word stands on both sides of every equation here, so none of them is ever evaluated.
-/
import Idealize.ShloMosaic.PureOps.Ideal
import Idealize.ShloMosaic.PureOps.Ideal.Laws
import Idealize.ShloMosaic.Lib.ValueIdx
import Idealize.ShloMosaic.Lib.Pipeline.Value

noncomputable section

namespace Cert.ChannelMix

open Idealize.ShloMosaic Idealize.ShloMosaic.ValueIdx

/-! ## The symmetry of a squared difference on the extended reals -/

/-- `(a - b)²  = (b - a)²` for all extended reals. On the reals it is the ring identity; when exactly one of the two is
    infinite the two differences are the two infinities, whose squares are both `⊤`; when both are infinite of one
    sign the two differences are the same sum `⊤ + ⊥`; and of opposite signs they are again the two infinities. -/
theorem sq_sub_comm (a b : EReal) : (a - b) * (a - b) = (b - a) * (b - a) := by
  induction a using EReal.rec with
  | bot =>
    induction b using EReal.rec with
    | bot => rfl
    | coe y => simp [sub_eq_add_neg]
    | top => simp [sub_eq_add_neg]
  | coe x =>
    induction b using EReal.rec with
    | bot => simp [sub_eq_add_neg]
    | coe y =>
      rw [← EReal.coe_sub, ← EReal.coe_sub, ← EReal.coe_mul, ← EReal.coe_mul]
      exact congrArg _ (by ring)
    | top => simp [sub_eq_add_neg]
  | top =>
    induction b using EReal.rec with
    | bot => simp [sub_eq_add_neg]
    | coe y => simp [sub_eq_add_neg]
    | top => rfl

/-! ## One batch entry -/

/-- The mean of channel `c` over the 1024 positions: the row's sum divided by the word 1024. -/
def chanMean (X : Fin 512 → Fin 1024 → EReal) (c : Fin 512) : EReal :=
  Ideal.div (∑ s : Fin 1024, X c s) (Ideal.ofBits .f32 0x44800000#32)

/-- The score of channels `i` and `k`: minus the squared distance of their means. -/
def score (μ : Fin 512 → EReal) (i k : Fin 512) : EReal := -((μ k - μ i) * (μ k - μ i))

/-- The score does not depend on the order of the two channels. -/
theorem score_symm (μ : Fin 512 → EReal) (i k : Fin 512) : score μ i k = score μ k i := by
  unfold score
  rw [sq_sub_comm]

/-- The largest score of row `i`, taken from minus infinity (and once more against minus infinity, as the programs do). -/
def peak (sc : Fin 512 → Fin 512 → EReal) (i : Fin 512) : EReal :=
  max (Ideal.ofBits .f32 0xFF800000#32)
    ((Finset.univ : Finset (Fin 512)).fold max (Ideal.ofBits .f32 0xFF800000#32) fun k => sc i k)

/-- The shifted exponential of a score: never above one. -/
def weight (sc : Fin 512 → Fin 512 → EReal) (i k : Fin 512) : EReal := Ideal.exp (sc i k - peak sc i)

/-- The normalised weight of channel `k` in row `i`. -/
def attn (sc : Fin 512 → Fin 512 → EReal) (i k : Fin 512) : EReal :=
  Ideal.div (weight sc i k) (∑ k' : Fin 512, weight sc i k')

/-- Channel `i` of the mixed matrix at position `s`: the rows of `X` weighted by row `i` of the normalised weights. -/
def mix (X : Fin 512 → Fin 1024 → EReal) (i : Fin 512) (s : Fin 1024) : EReal :=
  ∑ k : Fin 512, attn (score (chanMean X)) i k * X k s

/-! ## Arrays of batch entries

The same function over an array `[n, 512, 1024]` of `n` batch entries, for any `n`: the kernel meets it at `n = 1` (one
entry loaded from a block), `n = 2` (a block of two entries) and `n = 32` (the whole array), the reference at `n = 32`. -/

/-- Batch entry `b` of an array `[n, 512, 1024]`, as a matrix of channels by positions. -/
def slab {n : ℕ} (x : (⟨3, ![n, 512, 1024]⟩ : Shape).Idx → EReal) (b : Fin n) : Fin 512 → Fin 1024 → EReal :=
  fun c s => x (ix3 b c s)

theorem slab_apply {n : ℕ} (x : (⟨3, ![n, 512, 1024]⟩ : Shape).Idx → EReal) (b : Fin n) (c : Fin 512) (s : Fin 1024) :
    slab x b c s = x (ix3 b c s) := rfl

/-- The mixed matrices of all the batch entries as one array: entry `b` is mixed by itself. -/
def mix3 {n : ℕ} (x : (⟨3, ![n, 512, 1024]⟩ : Shape).Idx → EReal) : (⟨3, ![n, 512, 1024]⟩ : Shape).Idx → EReal := fun j =>
  mix (slab x (⟨(j 0).val, (j 0).isLt⟩ : Fin n)) ⟨(j 1).val, (j 1).isLt⟩ ⟨(j 2).val, (j 2).isLt⟩

theorem mix3_ix3 {n : ℕ} (x : (⟨3, ![n, 512, 1024]⟩ : Shape).Idx → EReal) (b : Fin n) (c : Fin 512) (s : Fin 1024) :
    mix3 x (ix3 b c s) = mix (slab x b) c s := rfl

/-- The result over `[n, 512, 1024]`: the array plus a tenth of its mixed matrices, clipped below at zero. -/
def out3 {n : ℕ} (x : (⟨3, ![n, 512, 1024]⟩ : Shape).Idx → EReal) : (⟨3, ![n, 512, 1024]⟩ : Shape).Idx → EReal := fun j =>
  max (x j + Ideal.ofBits .f32 0x3DCCCCCD#32 * mix3 x j) (Ideal.ofBits .f32 0x00000000#32)

theorem out3_ix3 {n : ℕ} (x : (⟨3, ![n, 512, 1024]⟩ : Shape).Idx → EReal) (b : Fin n) (c : Fin 512) (s : Fin 1024) :
    out3 x (ix3 b c s)
      = max (x (ix3 b c s) + Ideal.ofBits .f32 0x3DCCCCCD#32 * mix (slab x b) c s) (Ideal.ofBits .f32 0x00000000#32) := rfl

/-- The result of some batch entries of an array is those entries of the array's result: if `B` holds, at entry `p`,
    entry `f p` of `X`, then so does the result of `B` of the result of `X` — each entry is mixed by itself. -/
theorem out3_of_entries {n n' : ℕ} (X : (⟨3, ![n', 512, 1024]⟩ : Shape).Idx → EReal)
    (B : (⟨3, ![n, 512, 1024]⟩ : Shape).Idx → EReal) (f : Fin n → Fin n')
    (hB : ∀ (p : Fin n) (c : Fin 512) (s : Fin 1024), B (ix3 p c s) = X (ix3 (f p) c s))
    (p : Fin n) (c : Fin 512) (s : Fin 1024) : out3 B (ix3 p c s) = out3 X (ix3 (f p) c s) := by
  have hs : slab B p = slab X (f p) := funext fun c => funext fun s => hB p c s
  rw [out3_ix3, out3_ix3, hB, hs]

/-- The result over the argument's own shape [32, 512, 32, 32]: the last two axes are read as one axis of 1024
    positions, the result is computed there, and the 1024 positions are read as 32 by 32 again. -/
def result (h : (⟨4, ![32, 512, 32, 32]⟩ : Shape).ShapeCasts ⟨3, ![32, 512, 1024]⟩)
    (h' : (⟨3, ![32, 512, 1024]⟩ : Shape).ShapeCasts ⟨4, ![32, 512, 32, 32]⟩)
    (x : (⟨4, ![32, 512, 32, 32]⟩ : Shape).Idx → EReal) : (⟨4, ![32, 512, 32, 32]⟩ : Shape).Idx → EReal :=
  shapeCast ⟨4, ![32, 512, 32, 32]⟩ (out3 (shapeCast ⟨3, ![32, 512, 1024]⟩ x h)) h'

end Cert.ChannelMix

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.KernelBody.lean ====
/-
  One batch entry through the kernel body.

  The body handles the two batch entries of a block one after the other, each by the same operations: the row means
  as a column; the column laid along the rows, less the column laid along the columns, squared and negated (as zero
  minus the square) — the scores; each row's largest score, taken from minus infinity; the shifted exponentials and
  their row totals; the quotient; the matrix product of the quotients with the entry, into a zero accumulator (the two
  operands pass through a narrower float format on the way, which is the identity on the extended reals); a tenth of it
  added to the entry and clipped below at zero. The steps are named here (`means`, `scores`, `rowPeaks`, `weights`,
  `normalised`, `entryOut`) so that each is read at an index by itself; the printed payloads are these steps composed,
  with the block's leading unit axis dropped before and put back after, by unfolding alone.

  Read at an index, row `i` of the scores is `ChannelMix.score` of the means at `(i, ·)` — zero minus a square is its
  negation —, and the rest is `ChannelMix.peak`, `weight`, `attn` and `mix` term by term.
-/
import proofs.«112874_j20083267076587_2_alg».proof.Proof.Gen.KernelIdeal.Skeleton
import proofs.«112874_j20083267076587_2_alg».proof.Proof.ChannelMix
import proofs.«112874_j20083267076587_2_alg».proof.Proof.LibColumnForms
import proofs.«112874_j20083267076587_2_alg».proof.Proof.LibRowForms
import Idealize.ShloMosaic.Lib.ValueLayout
import Idealize.ShloMosaic.PureOps.Ideal.Laws

noncomputable section

namespace Cert.KernelIdeal.Body

open Cert.KernelIdeal Cert.KernelIdeal.Gen Cert.ChannelMix Cert.ColumnForms Cert.RowForms
open Idealize.ShloMosaic Idealize.ShloMosaic.ValueIdx

/-! ## The steps -/

section Steps
variable {F : FTy → Type} [FloatOps F]

/-- The row means, as a column. -/
def means (X : FVec F S512x1024 .f32) : FVec F S512x1 .f32 :=
  divf (shapeCast S512x1 (multiReduction .add [1] S512 X 0x00000000#32 reduces_S512x1024_S512 (.inl rfl) rfl) shapeCasts_S512_S512x1)
    (broadcast S512x1 (Scalar.ofBits .f32 0x44800000#32))

/-- The scores: zero minus the squared difference of the means along the rows and along the columns. -/
def scores (μ : FVec F S512x1 .f32) : FVec F S512x512 .f32 :=
  subf (broadcast S512x512 (Scalar.ofBits .f32 0x00000000#32))
    (mulf
      (subf (broadcastTo S512x512 (transpose S1x512 [1, 0] μ transposes_S512x1_p1_0_S1x512) broadcasts_S1x512_S512x512)
        (broadcastTo S512x512 μ broadcasts_S512x1_S512x512))
      (subf (broadcastTo S512x512 (transpose S1x512 [1, 0] μ transposes_S512x1_p1_0_S1x512) broadcasts_S1x512_S512x512)
        (broadcastTo S512x512 μ broadcasts_S512x1_S512x512)))

/-- Each row's largest score, from minus infinity. -/
def rowPeaks (sc : FVec F S512x512 .f32) : FVec F S512 .f32 :=
  maximumf (broadcast S512 (Scalar.ofBits .f32 0xFF800000#32))
    (multiReduction .maximumf [1] S512 sc 0xFF800000#32 reduces_S512x512_S512 (.inl rfl) rfl)

/-- The shifted exponentials. -/
def weights (sc : FVec F S512x512 .f32) : FVec F S512x512 .f32 :=
  exp (subf sc (broadcastTo S512x512 (shapeCast S512x1 (rowPeaks sc) shapeCasts_S512_S512x1) broadcasts_S512x1_S512x512))

/-- The shifted exponentials over their row totals. -/
def normalised (sc : FVec F S512x512 .f32) : FVec F S512x512 .f32 :=
  divf (weights sc)
    (broadcastTo S512x512
      (shapeCast S512x1 (multiReduction .add [1] S512 (weights sc) 0x00000000#32 reduces_S512x512_S512 (.inl rfl) rfl)
        shapeCasts_S512_S512x1)
      broadcasts_S512x1_S512x512)

/-- One batch entry's result. -/
def entryOut (X : FVec F S512x1024 .f32) : FVec F S512x1024 .f32 :=
  maximumf
    (addf X
      (mulf (broadcast S512x1024 (Scalar.ofBits .f32 0x3DCCCCCD#32))
        (matmul dot_S512x512_S512x1024_S512x1024_1_0_0_1_n_n none
          (truncf .bf16 (normalised (scores (means X))) bitsLt_bf16_f32) (truncf .bf16 X bitsLt_bf16_f32)
          (constant S512x1024 .f32 0x00000000#32))))
    (broadcast S512x1024 (Scalar.ofBits .f32 0x00000000#32))

/-- The payload of the first store is the steps composed, between the two changes of the block's leading unit axis. -/
theorem pay2_eq (v : Vec F S1x512x1024 .f32) :
    k0_pay2 v = shapeCast S1x512x1024 (entryOut (shapeCast S512x1024 v shapeCasts_S1x512x1024_S512x1024))
      shapeCasts_S512x1024_S1x512x1024 := rfl

/-- And so is the payload of the second store, over the second load. -/
theorem pay1_eq (v : Vec F S1x512x1024 .f32) :
    k0_pay1 (k0_pay3 v) = shapeCast S1x512x1024 (entryOut (shapeCast S512x1024 v shapeCasts_S1x512x1024_S512x1024))
      shapeCasts_S512x1024_S1x512x1024 := rfl

end Steps

/-! ## The steps at an index, on the extended reals -/

/-- The mean of row `c`. -/
theorem means_at (X : FVec Ideal S512x1024 .f32) (c : Fin 512) (u : Fin 1) :
    means X (ix2 c u) = chanMean (fun c s => X (ix2 c s)) c := by
  unfold means chanMean
  refine congrArg (fun t => Ideal.div t (Ideal.ofBits .f32 0x44800000#32)) ?_
  exact (shapeCast_a_a1_apply _ shapeCasts_S512_S512x1 c u).trans (multiReduction_add_rows X reduces_S512x1024_S512 c)

/-- Entry `(i, k)` of the scores is the score of the two means. -/
theorem scores_at (μ : FVec Ideal S512x1 .f32) (i k : Fin 512) :
    scores μ (ix2 i k) = score (fun c => μ (ix2 c (0 : Fin 1))) i k := by
  have e1 := rowOfColumn_apply μ transposes_S512x1_p1_0_S1x512 broadcasts_S1x512_S512x512 i k
  have e2 := broadcastTo_a1_ab_apply μ broadcasts_S512x1_S512x512 i k
  unfold scores score
  simp only [subf_apply, mulf_apply, broadcast_apply, e1, e2]
  exact (congrArg (· - _) Ideal.ofBits_zero_f32).trans (zero_sub _)

/-- The largest score of row `i`. -/
theorem rowPeaks_at (sc : FVec Ideal S512x512 .f32) (i : Fin 512) :
    rowPeaks sc (ix1 i) = peak (fun i k => sc (ix2 i k)) i := by
  unfold rowPeaks peak
  exact congrArg (max (Ideal.ofBits .f32 0xFF800000#32)) (multiReduction_max_rows sc reduces_S512x512_S512 i)

/-- The shifted exponential at `(i, k)`. -/
theorem weights_at (sc : FVec Ideal S512x512 .f32) (i k : Fin 512) :
    weights sc (ix2 i k) = weight (fun i k => sc (ix2 i k)) i k := by
  unfold weights weight
  have e := (broadcastTo_a1_ab_apply (shapeCast S512x1 (rowPeaks sc) shapeCasts_S512_S512x1) broadcasts_S512x1_S512x512 i k).trans
    ((shapeCast_a_a1_apply (rowPeaks sc) shapeCasts_S512_S512x1 i (0 : Fin 1)).trans (rowPeaks_at sc i))
  exact congrArg (fun t => Ideal.exp (sc (ix2 i k) - t)) e

/-- The normalised weight at `(i, k)`. -/
theorem normalised_at (sc : FVec Ideal S512x512 .f32) (i k : Fin 512) :
    normalised sc (ix2 i k) = attn (fun i k => sc (ix2 i k)) i k := by
  unfold normalised attn
  have e : broadcastTo S512x512
      (shapeCast S512x1 (multiReduction .add [1] S512 (weights sc) 0x00000000#32 reduces_S512x512_S512 (.inl rfl) rfl)
        shapeCasts_S512_S512x1) broadcasts_S512x1_S512x512 (ix2 i k)
        = ∑ k' : Fin 512, weight (fun i k => sc (ix2 i k)) i k' :=
    (broadcastTo_a1_ab_apply _ broadcasts_S512x1_S512x512 i k).trans
      ((shapeCast_a_a1_apply _ shapeCasts_S512_S512x1 i (0 : Fin 1)).trans
        ((multiReduction_add_rows (weights sc) reduces_S512x512_S512 i).trans
          (Finset.sum_congr rfl fun k' _ => weights_at sc i k')))
  exact congrArg₂ Ideal.div (weights_at sc i k) e

/-! ## The matrix product at an index -/

abbrev D := dot_S512x512_S512x1024_S512x1024_1_0_0_1_n_n

theorem lhs_row (j : S512x1024.Idx) (q : D.contr.Idx) : (D.lhsIdx j q 0).val = (j 0).val := by
  unfold DotDims.lhsIdx
  rw [dif_neg (show ¬(0 : Fin S512x512.rank) ∈ D.lhsBatch by decide),
    dif_pos (show (0 : Fin S512x512.rank) ∈ D.lhsNonContracting by decide)]
  rfl
theorem lhs_col (j : S512x1024.Idx) (q : D.contr.Idx) : (D.lhsIdx j q 1).val = (q ⟨0, by decide⟩).val :=
  D.lhsIdx_val_of_single rfl j q
theorem rhs_row (j : S512x1024.Idx) (q : D.contr.Idx) : (D.rhsIdx j q 0).val = (q ⟨0, by decide⟩).val :=
  D.rhsIdx_val_of_single rfl j q
theorem rhs_col (j : S512x1024.Idx) (q : D.contr.Idx) : (D.rhsIdx j q 1).val = (j 1).val := by
  unfold DotDims.rhsIdx
  rw [dif_neg (show ¬(1 : Fin S512x1024.rank) ∈ D.rhsBatch by decide),
    dif_pos (show (1 : Fin S512x1024.rank) ∈ D.rhsNonContracting by decide)]
  rfl

/-- The body's matrix product into a zero accumulator, at `(i, s)`: the sum over `k` of the products. -/
theorem matmul_at (l : FVec Ideal S512x512 .bf16) (r : FVec Ideal S512x1024 .bf16) (i : Fin 512) (s : Fin 1024) :
    matmul D none l r (constant (F := Ideal) S512x1024 .f32 0x00000000#32) (ix2 i s)
      = ∑ k : Fin 512, l (ix2 i k) * r (ix2 k s) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 i s) ((contrEquiv1 D 512 rfl rfl).symm k) = ix2 i k := funext fun a => Fin.ext (by
    match a with
    | ⟨0, _⟩ => exact lhs_row _ _
    | ⟨1, _⟩ => exact (lhs_col _ _).trans hk)
  have er : D.rhsIdx (ix2 i s) ((contrEquiv1 D 512 rfl rfl).symm k) = ix2 k s := funext fun a => Fin.ext (by
    match a with
    | ⟨0, _⟩ => exact (rhs_row _ _).trans hk
    | ⟨1, _⟩ => exact rhs_col _ _)
  rw [el, er]

/-! ## One batch entry's result at an index -/

theorem entryOut_at (X : FVec Ideal S512x1024 .f32) (c : Fin 512) (s : Fin 1024) :
    entryOut X (ix2 c s)
      = max (X (ix2 c s) + Ideal.ofBits .f32 0x3DCCCCCD#32 * mix (fun c s => X (ix2 c s)) c s)
          (Ideal.ofBits .f32 0x00000000#32) := by
  have hsc : (fun i k => scores (means X) (ix2 i k)) = score (chanMean fun c s => X (ix2 c s)) := by
    funext i k
    rw [scores_at]
    exact congrArg (fun μ => score μ i k) (funext fun c => means_at X c 0)
  have e : matmul D none (truncf .bf16 (normalised (scores (means X))) bitsLt_bf16_f32) (truncf .bf16 X bitsLt_bf16_f32)
      (constant (F := Ideal) S512x1024 .f32 0x00000000#32) (ix2 c s) = mix (fun c s => X (ix2 c s)) c s := by
    rw [matmul_at]
    unfold mix
    refine Finset.sum_congr rfl fun k _ => ?_
    rw [truncf_apply, truncf_apply, normalised_at, hsc]
  unfold entryOut
  exact congrArg (fun t => max (X (ix2 c s) + Ideal.ofBits .f32 0x3DCCCCCD#32 * t) (Ideal.ofBits .f32 0x00000000#32)) e

/-! ## The payloads -/

/-- The first store's payload is the result of the one batch entry it loaded. -/
theorem pay2_out (v : Vec Ideal S1x512x1024 .f32) : k0_pay2 (F := Ideal) v = out3 v := by
  funext j
  obtain ⟨u, c, s, rfl⟩ : ∃ (u : Fin 1) (c : Fin 512) (s : Fin 1024), j = ix3 u c s := ⟨j 0, j 1, j 2, eq_ix3 j⟩
  obtain rfl : u = 0 := Subsingleton.elim _ _
  rw [pay2_eq, out3_ix3]
  refine (shapeCast_ab_1ab_apply _ shapeCasts_S512x1024_S1x512x1024 0 c s).trans ?_
  refine (entryOut_at _ c s).trans ?_
  have e : ∀ (c : Fin 512) (s : Fin 1024),
      shapeCast S512x1024 v shapeCasts_S1x512x1024_S512x1024 (ix2 c s) = v (ix3 (0 : Fin 1) c s) :=
    fun c s => shapeCast_1ab_ab_apply v _ c s
  simp only [e]
  rfl

/-- The second store's payload likewise, over the second load. -/
theorem pay1_out (v : Vec Ideal S1x512x1024 .f32) : k0_pay1 (F := Ideal) (k0_pay3 v) = out3 v :=
  (pay1_eq v).trans ((pay2_eq v).symm.trans (pay2_out v))

end Cert.KernelIdeal.Body

end
-- ==== Proof.KernelBlocks.lean ====
/-
  From the body's blocks to the kernel's result.

  A grid point handles a block of two batch entries. The body loads entry 0, stores its result into entry 0 of the
  output block, then does the same for entry 1: two stores through the two unit slabs of the block, which tile it. So
  the output block is the result of the input block, entry by entry (`out_block`).

  Point `t` reads block `t` of the array [32, 512, 1024] and writes block `t` of the output: batch entries `2t` and
  `2t + 1`, all channels, all positions (`idx_facts`, decided over the sixteen points). Each entry's result depends on
  that entry alone, so what point `t` writes back is block `t` of the result of the WHOLE array (`flushed_eq`). The
  sixteen blocks cover the array — entry `b` is in block `b / 2` — so the output array ends holding that result
  (`final`).

  Around the region the program reads its argument [32, 512, 32, 32] as [32, 512, 1024] before, and reads the output
  as [32, 512, 32, 32] after: the kernel's result is `ChannelMix.result` of the argument (`run`).
-/
import proofs.«112874_j20083267076587_2_alg».proof.Proof.Gen.KernelIdeal.Frame
import proofs.«112874_j20083267076587_2_alg».proof.Proof.KernelBody
import Idealize.ShloMosaic.Lib.Pipeline.Value
import Idealize.ShloMosaic.Lib.StableHlo.Run

noncomputable section

namespace Cert.KernelIdeal.Blocks

open Cert.KernelIdeal Cert.KernelIdeal.Gen Cert.KernelIdeal.Body Cert.ChannelMix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The output block -/

/-- The first unit slab of a block of two entries is its entry 0. -/
theorem emb_first (u : Fin 1) (c : Fin 512) (s : Fin 1024) : r0_0.emb (ix3 u c s) = ix3 (0 : Fin 2) c s :=
  funext fun a => Fin.ext (by
    match a with
    | ⟨0, _⟩ => show 0 + 1 * u.val = 0; omega
    | ⟨1, _⟩ => show 0 + 1 * c.val = c.val; omega
    | ⟨2, _⟩ => show 0 + 1 * s.val = s.val; omega)

/-- The second unit slab is its entry 1. -/
theorem emb_second (u : Fin 1) (c : Fin 512) (s : Fin 1024) : r0_1.emb (ix3 u c s) = ix3 (1 : Fin 2) c s :=
  funext fun a => Fin.ext (by
    match a with
    | ⟨0, _⟩ => show 1 + 1 * u.val = 1; omega
    | ⟨1, _⟩ => show 0 + 1 * c.val = c.val; omega
    | ⟨2, _⟩ => show 0 + 1 * s.val = s.val; omega)

/-- What the body leaves in the output block is the result of the input block: each of the two stores holds the
    result of the entry it loaded, which is that entry of the block's result. -/
theorem out_block (x0 : Vec Ideal S2x512x1024 .f32) : out0_1 x0 = out3 x0 := by
  funext y
  unfold out0_1
  refine View.canon_apply_of_pieces (Val := Elt Ideal) (e := .f32) (out3 x0 : S2x512x1024.Idx → Elt Ideal .f32) _ ?_ y (cover0_1 _ _ y)
  intro p hp
  simp only [List.mem_cons, List.mem_nil_iff, or_false] at hp
  rcases hp with rfl | rfl
  · intro x
    show k0_pay1 (F := Ideal) (k0_pay3 (View.ld x0 r0_1)) x = out3 x0 (r0_1.emb x)
    rw [pay1_out]
    obtain ⟨u, c, s, rfl⟩ : ∃ (u : Fin 1) (c : Fin 512) (s : Fin 1024), x = ix3 u c s := ⟨x 0, x 1, x 2, eq_ix3 x⟩
    rw [emb_second]
    exact out3_of_entries x0 (View.ld x0 r0_1) (fun _ => (1 : Fin 2)) (fun p c s => congrArg x0 (emb_second p c s)) u c s
  · intro x
    show k0_pay2 (F := Ideal) (View.ld x0 r0_0) x = out3 x0 (r0_0.emb x)
    rw [pay2_out]
    obtain ⟨u, c, s, rfl⟩ : ∃ (u : Fin 1) (c : Fin 512) (s : Fin 1024), x = ix3 u c s := ⟨x 0, x 1, x 2, eq_ix3 x⟩
    rw [emb_first]
    exact out3_of_entries x0 (View.ld x0 r0_0) (fun _ => (0 : Fin 2)) (fun p c s => congrArg x0 (emb_first p c s)) u c s

/-! ## The windows' blocks -/

/-- The printed index maps, decided over the sixteen points: the input block and the output block of a point have the
    same number along the batch axis, at most 15, and number 0 along the other two. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 15 :=
  (by decide +kernel : ∀ t : Fin grid0.N, _)

/-- Every block number along the batch axis is some point's. -/
theorem idx_onto : ∀ q : Fin 16, ∃ t : Fin cfg0.N, win0_1.index t = ![q.val, 0, 0] :=
  (by decide +kernel : ∀ q : Fin 16, ∃ t : Fin grid0.N, win0_1.index t = ![q.val, 0, 0])

/-- WHAT POINT `t` WRITES BACK is block `t` of the result of the whole array as the region finds it. -/
theorem flushed_eq (c : Dev nD) (t : Fin cfg0.N) :
    (dats m 0 c).flushed 1 t = ((cfg0.win 1).blk t).view.read (Elt Ideal) (out3 (V m c main_v0)) := by
  show (cfg0.win 1).cut (grid0.coords t) ((dats m 0 c).after 1 t) = _
  rw [after0_1]
  obtain ⟨e0, e1, e2, e3, e4, e5⟩ := idx_facts t
  funext j
  show out0_1 (iblk m c 0 t) j = out3 (V m c main_v0) (((cfg0.win 1).blk t).view.emb j)
  refine (congrFun (out_block (iblk m c 0 t)) j).trans ?_
  obtain ⟨p, c', s, rfl⟩ : ∃ (p : Fin 2) (c' : Fin 512) (s : Fin 1024), j = ix3 p c' s := ⟨j 0, j 1, j 2, eq_ix3 j⟩
  have hb : ∀ p : Fin 2, win0_1.index t (0 : Fin 3) * 2 + p.val < 32 := fun p => by have := p.isLt; omega
  have he1 : ((cfg0.win 1).blk t).view.emb (ix3 p c' s)
      = ix3 (⟨win0_1.index t (0 : Fin 3) * 2 + p.val, hb p⟩ : Fin 32) c' s := funext fun a => Fin.ext (by
    match a with
    | ⟨0, _⟩ => show win0_1.index t (0 : Fin 3) * 2 + 1 * p.val = win0_1.index t (0 : Fin 3) * 2 + p.val; omega
    | ⟨1, _⟩ => show win0_1.index t (1 : Fin 3) * 512 + 1 * c'.val = c'.val; omega
    | ⟨2, _⟩ => show win0_1.index t (2 : Fin 3) * 1024 + 1 * s.val = s.val; omega)
  rw [he1]
  refine out3_of_entries (V m c main_v0) (iblk m c 0 t) (fun p => ⟨win0_1.index t (0 : Fin 3) * 2 + p.val, hb p⟩)
    (fun p c' s => ?_) p c' s
  show V m c main_v0 (((cfg0.win 0).blk t).view.emb (ix3 p c' s)) = _
  refine congrArg (V m c main_v0) (funext fun a => Fin.ext ?_)
  match a with
  | ⟨0, _⟩ => show win0_0.index t (0 : Fin 3) * 2 + 1 * p.val = win0_1.index t (0 : Fin 3) * 2 + p.val; omega
  | ⟨1, _⟩ => show win0_0.index t (1 : Fin 3) * 512 + 1 * c'.val = c'.val; omega
  | ⟨2, _⟩ => show win0_0.index t (2 : Fin 3) * 1024 + 1 * s.val = s.val; omega

/-- An index of the array is in point `t`'s block iff each coordinate is in the block's range on its axis. -/
theorem mem_blk (t : Fin cfg0.N) (i : S32x512x1024.Idx) :
    i ∈ ((cfg0.win 1).blk t).view.set ↔ ∀ a : Fin 3, win0_1.index t a * S2x512x1024.size a ≤ (i a).val
      ∧ (i a).val < win0_1.index t a * S2x512x1024.size a + S2x512x1024.size a := by
  show i ∈ ((View.whole main_v1).slice (win0_1.rect t)).set ↔ _
  rw [View.set_slice_whole, Rect.mem_set_unit]
  exact Iff.rfl

/-- The blocks cover the array: batch entry `b` lies in the block of number `b / 2`. -/
theorem cover (i : S32x512x1024.Idx) :
    ∃ t : Fin cfg0.N, (cfg0.win 1).flush t = true ∧ i ∈ ((cfg0.win 1).blk t).view.set := by
  have hi0 : (i 0).val < 32 := (i 0).isLt
  have hi1 : (i 1).val < 512 := (i 1).isLt
  have hi2 : (i 2).val < 1024 := (i 2).isLt
  obtain ⟨t, ht⟩ := idx_onto ⟨(i 0).val / 2, by omega⟩
  have q0 : win0_1.index t (0 : Fin 3) = (i 0).val / 2 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 2 ≤ (i 0).val ∧ (i 0).val < win0_1.index t (0 : Fin 3) * 2 + 2; omega
  | ⟨1, _⟩ => show win0_1.index t (1 : Fin 3) * 512 ≤ (i 1).val ∧ (i 1).val < win0_1.index t (1 : Fin 3) * 512 + 512; omega
  | ⟨2, _⟩ => show win0_1.index t (2 : Fin 3) * 1024 ≤ (i 2).val ∧ (i 2).val < win0_1.index t (2 : Fin 3) * 1024 + 1024; omega

/-- THE OUTPUT ARRAY after the run: the result of the array the region found. -/
theorem final (c : Dev nD) : (dats m 0 c).arrAt 1 cfg0.N = out3 (V m c main_v0) :=
  (dats m 0 c).arrAt_eq_of_cover 1 (out3 (V m c main_v0)) (fun t _ => flushed_eq m c t) cover

/-! ## Around the region -/

/-- The array the region finds is the argument read as [32, 512, 1024]. -/
theorem V_main_v0 (c : Dev nD) :
    (V m c main_v0 : S32x512x1024.Idx → EReal)
      = shapeCast S32x512x1024 (m ((c : Thread nD τ).loc main_arg0)) shapeCasts_S32x512x32x32_S32x512x1024 := by
  show StableHlo.after hostOps0 (fun b => m (c, b)) (Proc.devRef .tc main_v0) = _
  after_results
  rfl

/-- The program's result, after the line that follows the region: the output array read as [32, 512, 32, 32]. -/
theorem tail_eq (c : Dev nD) :
    Pipeline.afterTail₀ cfgs (dats m) 0 (V0 m) [hostOps1] c main_v2
      = result shapeCasts_S32x512x32x32_S32x512x1024 shapeCasts_S32x512x1024_S32x512x32x32
          (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final m c), V_main_v0]
  rfl

/-- THE RUN: every weakly fair execution terminates with the result at `ChannelMix.result` of the argument, and the
    argument unchanged. -/
theorem run : θ_run defs (onTc (τ := τ) (main (F := Ideal))) ⟨m, fun _ => 0, ρ⟩ fun r => ∀ c : Dev nD,
      r.2.mem ((c : Thread nD τ).loc main_v2)
        = result shapeCasts_S32x512x32x32_S32x512x1024 shapeCasts_S32x512x1024_S32x512x32x32
            (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.Blocks

end
-- ==== Proof.RefValue.lean ====
/-
  The reference computes the channel mixing of `Cert.ChannelMix`.

  The reference works on the whole batch at once, over arrays [32, 512, 512] whose entry `(b, k, c)` is the score of
  channels `k` and `c` of batch entry `b`, and it normalises along the FIRST channel axis: the largest score and the
  total weight of column `c` are taken over `k`. Read at an index, column `c` holds the scores `score μ k c`, which by the
  symmetry of the score are row `c`'s `score μ c k`; so the column's largest score and total weight are the row's, the
  normalised weight at `(b, k, c)` is `attn (score μ) c k`, and the contraction `∑ k, x(b, k, s) · attn (score μ) c k` is
  `mix` at `(c, s)` with the factors of each product exchanged.

  The reference adds and clips over the argument's own shape [32, 512, 32, 32], after reading the mixed array
  [32, 512, 1024] in that shape; the argument itself is its own reading as [32, 512, 1024] read back, so the whole is
  `ChannelMix.result` of the argument.
-/
import proofs.«112874_j20083267076587_2_alg».proof.Proof.Gen.ReferenceIdeal.Read
import proofs.«112874_j20083267076587_2_alg».proof.Proof.ChannelMix

noncomputable section

namespace Cert.ReferenceIdeal.Mixing

open Cert.ReferenceIdeal Cert.ReferenceIdeal.Gen Cert.ReferenceIdeal.Read Cert.ChannelMix
open Idealize.ShloMosaic Idealize.ShloMosaic.ValueIdx

variable (x0 : FVec Ideal S32x512x32x32 .f32)

/-! ## The operations' index maps at an index given by its coordinates -/

theorem at_v1 (b : Fin 32) (s : Fin 1024) (k : Fin 512) : idx_main_v1 (ix3 b s k) = ix3 b k s :=
  funext fun a => Fin.ext (by match a with | ⟨0, _⟩ => rfl | ⟨1, _⟩ => rfl | ⟨2, _⟩ => rfl)
theorem at_v2 (b : Fin 32) (c : Fin 512) (s : Fin 1024) : idx_main_v2 (ix2 b c) s = ix3 b s c :=
  funext fun a => Fin.ext (by match a with | ⟨0, _⟩ => rfl | ⟨1, _⟩ => rfl | ⟨2, _⟩ => rfl)
theorem at_v5 (b : Fin 32) (c : Fin 512) : idx_main_v5 (ix3 b (0 : Fin 1) c) = ix2 b c :=
  funext fun a => Fin.ext (by match a with | ⟨0, _⟩ => rfl | ⟨1, _⟩ => rfl)
theorem at_v6 (b : Fin 32) (k : Fin 512) : idx_main_v6 (ix3 b k (0 : Fin 1)) = ix2 b k :=
  funext fun a => Fin.ext (by match a with | ⟨0, _⟩ => rfl | ⟨1, _⟩ => rfl)
theorem at_v7 (b : Fin 32) (k c : Fin 512) : idx_main_v7 (ix3 b k c) = ix3 b (0 : Fin 1) c :=
  funext fun a => Fin.ext (by match a with | ⟨0, _⟩ => rfl | ⟨1, _⟩ => rfl | ⟨2, _⟩ => rfl)
theorem at_v8 (b : Fin 32) (k c : Fin 512) : idx_main_v8 (ix3 b k c) = ix3 b k (0 : Fin 1) :=
  funext fun a => Fin.ext (by match a with | ⟨0, _⟩ => rfl | ⟨1, _⟩ => rfl | ⟨2, _⟩ => rfl)
theorem at_v15 (b : Fin 32) (c : Fin 512) : idx_main_v15 (ix3 b (0 : Fin 1) c) = ix2 b c :=
  funext fun a => Fin.ext (by match a with | ⟨0, _⟩ => rfl | ⟨1, _⟩ => rfl)
theorem at_v16 (b : Fin 32) (k c : Fin 512) : idx_main_v16 (ix3 b k c) = ix3 b (0 : Fin 1) c :=
  funext fun a => Fin.ext (by match a with | ⟨0, _⟩ => rfl | ⟨1, _⟩ => rfl | ⟨2, _⟩ => rfl)
theorem at_v19 (b : Fin 32) (c k : Fin 512) : idx_main_v19 (ix2 b c) k = ix3 b k c :=
  funext fun a => Fin.ext (by match a with | ⟨0, _⟩ => rfl | ⟨1, _⟩ => rfl | ⟨2, _⟩ => rfl)
theorem at_v20 (b : Fin 32) (c : Fin 512) : idx_main_v20 (ix3 b (0 : Fin 1) c) = ix2 b c :=
  funext fun a => Fin.ext (by match a with | ⟨0, _⟩ => rfl | ⟨1, _⟩ => rfl)
theorem at_v21 (b : Fin 32) (k c : Fin 512) : idx_main_v21 (ix3 b k c) = ix3 b (0 : Fin 1) c :=
  funext fun a => Fin.ext (by match a with | ⟨0, _⟩ => rfl | ⟨1, _⟩ => rfl | ⟨2, _⟩ => rfl)
theorem at_v23l (b : Fin 32) (s : Fin 1024) (c k : Fin 512) : lidx_main_v23 (ix3 b s c) k = ix3 b s k :=
  funext fun a => Fin.ext (by match a with | ⟨0, _⟩ => rfl | ⟨1, _⟩ => rfl | ⟨2, _⟩ => rfl)
theorem at_v23r (b : Fin 32) (s : Fin 1024) (c k : Fin 512) : ridx_main_v23 (ix3 b s c) k = ix3 b k c :=
  funext fun a => Fin.ext (by match a with | ⟨0, _⟩ => rfl | ⟨1, _⟩ => rfl | ⟨2, _⟩ => rfl)
theorem at_v24 (b : Fin 32) (c : Fin 512) (s : Fin 1024) : idx_main_v24 (ix3 b c s) = ix3 b s c :=
  funext fun a => Fin.ext (by match a with | ⟨0, _⟩ => rfl | ⟨1, _⟩ => rfl | ⟨2, _⟩ => rfl)

/-! ## The stages, read at an index -/

/-- The mean of channel `c` of batch entry `b`. -/
theorem mean_at (b : Fin 32) (c : Fin 512) :
    val_main_v4 (F := Ideal) x0 (ix2 b c) = chanMean (slab (val_main_v0 (F := Ideal) x0) b) c := by
  rw [val_main_v4_apply, val_main_v2_apply, val_main_v3_apply, val_main_cst_0_apply, val_main_cst_apply]
  simp only [at_v2, val_main_v1_apply, at_v1]
  unfold chanMean
  simp only [Ideal.hostDivf_def, Ideal.ofBits_def, Ideal.ofBits_zero_f32, zero_add, slab_apply]

/-- Entry `(b, k, c)` of the scores is the score of channels `k` and `c`. -/
theorem score_at (b : Fin 32) (k c : Fin 512) :
    val_main_v11 (F := Ideal) x0 (ix3 b k c) = score (chanMean (slab (val_main_v0 (F := Ideal) x0) b)) k c := by
  rw [val_main_v11_apply, val_main_v10_apply, val_main_v9_apply, val_main_v7_apply, at_v7, val_main_v5_apply, at_v5,
    val_main_v8_apply, at_v8, val_main_v6_apply, at_v6, mean_at, mean_at]
  rfl

/-- A maximum taken by the host over the middle axis of an array [32, 512, 512], at `(b, c)`: the fold of `max`, from the
    initial value, over the entries `(b, k, c)`. -/
theorem hostMax_middle (y : FVec Ideal S32x512x512 .f32) (init : FVec Ideal S_ .f32) (b : Fin 32) (c : Fin 512) :
    Host.reduce FloatOps.maximumf y init reducesTo_S32x512x512_S32x512_d1 h_S_ (ix2 b c)
      = (Finset.univ : Finset (Fin 512)).fold max (init (Shape.Idx.first h_S_)) (fun k => y (ix3 b k c)) := by
  have h : S32x512x512.Reduces [1] S32x512 := by decide
  rw [Host.reduce_eq_fold_single FloatOps.maximumf y init reducesTo_S32x512x512_S32x512_d1 h h_S_]
  have hf : (y ∘ h.lift (ix2 b c)) = fun k : Fin 512 => y (ix3 b k c) :=
    funext fun k => congrArg y (funext fun a => Fin.ext (by match a with | ⟨0, _⟩ => rfl | ⟨1, _⟩ => rfl | ⟨2, _⟩ => rfl))
  exact congrArg (fun f => Finset.fold max (init (Shape.Idx.first h_S_)) f (Finset.univ : Finset (Fin 512))) hf

/-- The host's maximum over the first channel axis, at `(b, c)`: the fold of `max` from minus infinity over column `c`. -/
theorem colmax_at (b : Fin 32) (c : Fin 512) :
    val_main_v12 (F := Ideal) x0 (ix2 b c)
      = (Finset.univ : Finset (Fin 512)).fold max (Ideal.ofBits .f32 0xFF800000#32)
          (fun k => val_main_v11 (F := Ideal) x0 (ix3 b k c)) := by
  exact hostMax_middle (val_main_v11 (F := Ideal) x0) (val_main_cst_1 (F := Ideal)) b c

/-- Column `c`'s largest score is row `c`'s: the score is symmetric. -/
theorem peak_at (b : Fin 32) (c : Fin 512) :
    val_main_v14 (F := Ideal) x0 (ix2 b c) = peak (score (chanMean (slab (val_main_v0 (F := Ideal) x0) b))) c := by
  rw [val_main_v14_apply, val_main_v13_apply, val_main_cst_2_apply, colmax_at]
  simp only [score_at]
  have hs : (fun k => score (chanMean (slab (val_main_v0 (F := Ideal) x0) b)) k c)
      = fun k => score (chanMean (slab (val_main_v0 (F := Ideal) x0) b)) c k := funext fun k => score_symm _ k c
  rw [hs]
  rfl

/-- The shifted exponential at `(b, k, c)` is row `c`'s weight of channel `k`. -/
theorem weight_at (b : Fin 32) (k c : Fin 512) :
    val_main_v18 (F := Ideal) x0 (ix3 b k c) = weight (score (chanMean (slab (val_main_v0 (F := Ideal) x0) b))) c k := by
  rw [val_main_v18_apply, val_main_v17_apply, score_at, val_main_v16_apply, at_v16, val_main_v15_apply, at_v15, peak_at,
    score_symm _ k c]
  rfl

/-- The normalised weight at `(b, k, c)` is row `c`'s. -/
theorem attn_at (b : Fin 32) (k c : Fin 512) :
    val_main_v22 (F := Ideal) x0 (ix3 b k c) = attn (score (chanMean (slab (val_main_v0 (F := Ideal) x0) b))) c k := by
  rw [val_main_v22_apply, val_main_v21_apply, at_v21, val_main_v20_apply, at_v20, val_main_v19_apply, val_main_cst_3_apply]
  simp only [at_v19, weight_at]
  unfold attn
  simp only [Ideal.hostDivf_def, Ideal.ofBits_def, Ideal.ofBits_zero_f32, zero_add]

/-- The contraction, read back in the layout [32, 512, 1024], is the mixed matrix of each batch entry. -/
theorem mix_at (b : Fin 32) (c : Fin 512) (s : Fin 1024) :
    val_main_v24 (F := Ideal) x0 (ix3 b c s) = mix (slab (val_main_v0 (F := Ideal) x0) b) c s := by
  rw [val_main_v24_apply, at_v24, val_main_v23_apply]
  unfold mix
  refine Finset.sum_congr rfl fun k _ => ?_
  rw [at_v23l, at_v23r, val_main_v1_apply, at_v1, attn_at, mul_comm, slab_apply]

theorem mix_eq : val_main_v24 (F := Ideal) x0 = mix3 (val_main_v0 (F := Ideal) x0) := by
  funext j
  obtain ⟨b, c, s, rfl⟩ : ∃ (b : Fin 32) (c : Fin 512) (s : Fin 1024), j = ix3 b c s := ⟨j 0, j 1, j 2, eq_ix3 j⟩
  rw [mix_at, mix3_ix3]

/-! ## The reference's result -/

/-- The reference's result is `ChannelMix.result` of its argument. -/
theorem result_eq :
    val_main_v29 (F := Ideal) x0
      = result shapeCasts_S32x512x32x32_S32x512x1024 shapeCasts_S32x512x1024_S32x512x32x32 x0 := by
  funext i
  have hx : x0 i = shapeCast S32x512x32x32 (val_main_v0 (F := Ideal) x0) shapeCasts_S32x512x1024_S32x512x32x32 i := by
    unfold val_main_v0
    rw [shapeCast_shapeCast]
  rw [val_main_v29_apply, val_main_v28_apply, val_main_v27_apply, val_main_v26_apply, val_main_cst_4_apply,
    val_main_call0_v0_apply, val_main_call0_cst_apply]
  unfold val_main_v25
  rw [mix_eq, hx]
  rfl

end Cert.ReferenceIdeal.Mixing

end
-- ==== Proof.lean ====
/-
  The kernel and its reference compute one function of the argument, on the extended reals.

  The argument is an array [32, 512, 32, 32]: 32 batch entries of 512 channels over 32 × 32 positions, read as 1024
  positions. For each batch entry both programs take the channels' means over the positions, score every pair of
  channels by minus the squared distance of their means, turn the scores into normalised weights by shifted
  exponentials, mix the channels by these weights, add a tenth of the mixed entry to the entry and clip below at zero
  (`Cert.ChannelMix`).

  The two differ in arrangement only. The kernel normalises each ROW of the score matrix and multiplies the weights on
  the left of the entry, block by block of two batch entries; the reference normalises each COLUMN of the scores of all
  batch entries at once and multiplies the weights on the right of the transposed entry. The score matrix is symmetric —
  `(a - b)² = (b - a)²` on all of the extended reals —, so a column's largest score, its total weight and its weights
  are the row's, and the two contractions have the same terms with the factors of each product exchanged. No other law
  is used: sums and maxima are taken over the same index sets on both sides, the literals are the same words, and the
  changes of float format on the way into the kernel's matrix product are the identity here. In particular the
  precondition is not needed for the equality.

  The three frames are the generated ones (the reference's is its generated run with the result dropped); the
  kernel's idealization rewrites nothing, so `preserves` is `True`.
-/
import proofs.«112874_j20083267076587_2_alg».proof.Defs
import proofs.«112874_j20083267076587_2_alg».proof.Proof.Gen.Kernel
import proofs.«112874_j20083267076587_2_alg».proof.Proof.Gen.Kernel.Skeleton
import proofs.«112874_j20083267076587_2_alg».proof.Proof.Gen.Kernel.Launch
import proofs.«112874_j20083267076587_2_alg».proof.Proof.Gen.Kernel.Points
import proofs.«112874_j20083267076587_2_alg».proof.Proof.Gen.Kernel.Frame
import proofs.«112874_j20083267076587_2_alg».proof.Proof.Gen.KernelIdeal
import proofs.«112874_j20083267076587_2_alg».proof.Proof.Gen.KernelIdeal.Skeleton
import proofs.«112874_j20083267076587_2_alg».proof.Proof.Gen.KernelIdeal.Launch
import proofs.«112874_j20083267076587_2_alg».proof.Proof.Gen.KernelIdeal.Points
import proofs.«112874_j20083267076587_2_alg».proof.Proof.Gen.KernelIdeal.Frame
import proofs.«112874_j20083267076587_2_alg».proof.Proof.Gen.ReferenceIdeal
import proofs.«112874_j20083267076587_2_alg».proof.Proof.Gen.Pre_finite_inputs
import proofs.«112874_j20083267076587_2_alg».proof.Proof.Gen.ReferenceIdeal.Run
import proofs.«112874_j20083267076587_2_alg».proof.Proof.Gen.ReferenceIdeal.Read
import proofs.«112874_j20083267076587_2_alg».proof.Proof.KernelBlocks
import proofs.«112874_j20083267076587_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument both programs end with `ChannelMix.result` of it. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq m' c).trans ?_
  refine (Cert.ReferenceIdeal.Mixing.result_eq _).trans ?_
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
